-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x128x128 : Shape := ⟨3, ![8, 128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_

variable [Facts]

def fn {F : FTy → Type} [FloatOps F] (main_arg0 : FVec F S100000x128 .f32) (main_arg1 : FVec F S8x128x128 .f32) (main_arg2 : IVec S1600000 32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  main_v8
-- ==== Kernel.lean ====
abbrev S100000x128 : Shape := ⟨2, ![100000, 128]⟩
abbrev S8x128x128 : Shape := ⟨3, ![8, 128, 128]⟩
abbrev S1600000 : Shape := ⟨1, ![1600000]⟩
abbrev S_ : Shape := ⟨0, ![]⟩
abbrev S800000 : Shape := ⟨1, ![800000]⟩
abbrev S1600000x1 : Shape := ⟨2, ![1600000, 1]⟩
abbrev S1600000x128 : Shape := ⟨2, ![1600000, 128]⟩
abbrev S800000x128 : Shape := ⟨2, ![800000, 128]⟩
abbrev S8x100000x128 : Shape := ⟨3, ![8, 100000, 128]⟩
abbrev S1x5000x128 : Shape := ⟨3, ![1, 5000, 128]⟩
abbrev S1x128x128 : Shape := ⟨3, ![1, 128, 128]⟩
abbrev S5000x128 : Shape := ⟨2, ![5000, 128]⟩
abbrev S128x128 : Shape := ⟨2, ![128, 128]⟩

abbrev nBuf : Space → Nat
  | .hbm => 45
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S8x128x128, .f32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S800000, .f32⟩
  | .hbm, ⟨13, _⟩ => ⟨S1600000x1, .i32⟩
  | .hbm, ⟨14, _⟩ => ⟨S800000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S800000x128, .f32⟩
  | .hbm, ⟨41, _⟩ => ⟨S1600000x1, .i32⟩
  | .hbm, ⟨42, _⟩ => ⟨S800000x128, .f32⟩
  | .hbm, ⟨43, _⟩ => ⟨S8x100000x128, .f32⟩
  | .hbm, ⟨44, _⟩ => ⟨S100000x128, .f32⟩
  | .local _ .vmem, ⟨0, _⟩ => ⟨S1x5000x128, .f32⟩
  | .local _ .vmem, ⟨1, _⟩ => ⟨S1x5000x128, .f32⟩
  | .local _ .vmem, ⟨2, _⟩ => ⟨S1x128x128, .f32⟩
  | .local _ .vmem, ⟨3, _⟩ => ⟨S1x128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1600000 : S_.BroadcastsInDim S1600000 (![] : Fin 0 → Fin S1600000.rank)
  bcast_S_S800000 : S_.BroadcastsInDim S800000 (![] : Fin 0 → Fin S800000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S800000x128 : S_.BroadcastsInDim S800000x128 (![] : Fin 0 → Fin S800000x128.rank)
  shapeCasts_S800000x128_S8x100000x128 : S800000x128.ShapeCasts S8x100000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  scatter_S800000_S1600000x1_S1600000_n_0_0_1_wf : ScatterDims.WF S800000 S1600000x1 S1600000 [] [0] [0] 1
  gather_S800000_S1600000x1_S1600000_n_0_n_n_0_1_1_wf : GatherDims.WF S800000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S800000x128_S1600000x1_S1600000x128_1_0_0_1_wf : ScatterDims.WF S800000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S8x100000x128.size a
  hwx0_0 : ∀ i : grid0.Coords, EltTy.bits .f32 = 32 ∨ (Rect.block (s := S8x100000x128) S1x5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

def scatter_S800000_S1600000x1_S1600000_n_0_0_1 : ScatterDims S800000 S1600000x1 S1600000 where
  updateWindowDims := []
  insertedWindowDims := [0]
  scatterDimsToOperandDims := [0]
  indexVectorDim := 1
  wf := scatter_S800000_S1600000x1_S1600000_n_0_0_1_wf
def gather_S800000_S1600000x1_S1600000_n_0_n_n_0_1_1 : GatherDims S800000 S1600000x1 S1600000 where
  offsetDims := []
  collapsedSliceDims := [0]
  operandBatchingDims := []
  startIndicesBatchingDims := []
  startIndexMap := [0]
  indexVectorDim := 1
  sliceSizes := ![1]
  wf := gather_S800000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S800000x128_S1600000x1_S1600000x128_1_0_0_1 : ScatterDims S800000x128 S1600000x1 S1600000x128 where
  updateWindowDims := [1]
  insertedWindowDims := [0]
  scatterDimsToOperandDims := [0]
  indexVectorDim := 1
  wf := scatter_S800000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v29) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S8x128x128 : Shape := ⟨3, ![8, 128, 128]⟩
abbrev S1600000 : Shape := ⟨1, ![1600000]⟩
abbrev S_ : Shape := ⟨0, ![]⟩
abbrev S800000 : Shape := ⟨1, ![800000]⟩
abbrev S1600000x1 : Shape := ⟨2, ![1600000, 1]⟩
abbrev S1600000x128 : Shape := ⟨2, ![1600000, 128]⟩
abbrev S800000x128 : Shape := ⟨2, ![800000, 128]⟩
abbrev S8x100000x128 : Shape := ⟨3, ![8, 100000, 128]⟩
abbrev S100000x8x128 : Shape := ⟨3, ![100000, 8, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S8x128x128, .f32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S800000, .f32⟩
  | .hbm, ⟨13, _⟩ => ⟨S1600000x1, .i32⟩
  | .hbm, ⟨14, _⟩ => ⟨S800000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .f32⟩
  | .hbm, ⟨24, _⟩ => ⟨S_, .f32⟩
  | .hbm, ⟨25, _⟩ => ⟨S1600000, .f32⟩
  | .hbm, ⟨26, _⟩ => ⟨S1600000, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S800000x128, .f32⟩
  | .hbm, ⟨41, _⟩ => ⟨S1600000x1, .i32⟩
  | .hbm, ⟨42, _⟩ => ⟨S800000x128, .f32⟩
  | .hbm, ⟨43, _⟩ => ⟨S8x100000x128, .f32⟩
  | .hbm, ⟨44, _⟩ => ⟨S8x100000x128, .f32⟩
  | .hbm, ⟨45, _⟩ => ⟨S100000x8x128, .f32⟩
  | .hbm, ⟨46, _⟩ => ⟨S_, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S800000 : S_.BroadcastsInDim S800000 (![] : Fin 0 → Fin S800000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S800000x128 : S_.BroadcastsInDim S800000x128 (![] : Fin 0 → Fin S800000x128.rank)
  shapeCasts_S800000x128_S8x100000x128 : S800000x128.ShapeCasts S8x100000x128
  transposes_S8x100000x128_S100000x8x128_1_0_2 : S8x100000x128.Transposes [1, 0, 2] S100000x8x128
  reducesTo_S100000x8x128_S100000x128_d1 : S100000x8x128.ReducesTo [1] S100000x128
  h_S_ : 0 < S_.numel
  bcast_S_S100000x128 : S_.BroadcastsInDim S100000x128 (![] : Fin 0 → Fin S100000x128.rank)
  scatter_S800000_S1600000x1_S1600000_n_0_0_1_wf : ScatterDims.WF S800000 S1600000x1 S1600000 [] [0] [0] 1
  gather_S800000_S1600000x1_S1600000_n_0_n_n_0_1_1_wf : GatherDims.WF S800000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S800000x128_S1600000x1_S1600000x128_1_0_0_1_wf : ScatterDims.WF S800000x128 S1600000x1 S1600000x128 [1] [0] [0] 1
  dot_S8x100000x128_S8x128x128_S8x100000x128_2_2_1_1_0_0_wf : DotDims.WF S8x100000x128 S8x128x128 S8x100000x128 [2] [2] [1] [1] [0] [0]

variable [Facts₀]

def scatter_S800000_S1600000x1_S1600000_n_0_0_1 : ScatterDims S800000 S1600000x1 S1600000 where
  updateWindowDims := []
  insertedWindowDims := [0]
  scatterDimsToOperandDims := [0]
  indexVectorDim := 1
  wf := scatter_S800000_S1600000x1_S1600000_n_0_0_1_wf
def gather_S800000_S1600000x1_S1600000_n_0_n_n_0_1_1 : GatherDims S800000 S1600000x1 S1600000 where
  offsetDims := []
  collapsedSliceDims := [0]
  operandBatchingDims := []
  startIndicesBatchingDims := []
  startIndexMap := [0]
  indexVectorDim := 1
  sliceSizes := ![1]
  wf := gather_S800000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S800000x128_S1600000x1_S1600000x128_1_0_0_1 : ScatterDims S800000x128 S1600000x1 S1600000x128 where
  updateWindowDims := [1]
  insertedWindowDims := [0]
  scatterDimsToOperandDims := [0]
  indexVectorDim := 1
  wf := scatter_S800000x128_S1600000x1_S1600000x128_1_0_0_1_wf
def dot_S8x100000x128_S8x128x128_S8x100000x128_2_2_1_1_0_0 : DotDims S8x100000x128 S8x128x128 S8x100000x128 where
  lhsContracting := [2]
  rhsContracting := [2]
  lhsNonContracting := [1]
  rhsNonContracting := [1]
  lhsBatch := [0]
  rhsBatch := [0]
  wf := dot_S8x100000x128_S8x128x128_S8x100000x128_2_2_1_1_0_0_wf

class Facts : Prop extends Facts₀ where

variable [Facts]
-- ==== Proof.Pieces.lean ====
/-
  What each control case of the body leaves behind, as the stores' payloads.

  The body runs in one of three ways, by the relation coordinate of the grid point. At the first
  relation it zeroes the running block, reads it back and stores `zero + X · Wᵀ`; at a relation in the
  middle it stores `acc + X · Wᵀ` over the block `acc` the point before left; at the last relation it does
  the same and then stores the clamped block into the output. Every store writes the whole 5000 × 128
  buffer through offset zero, so what a buffer holds afterwards is the last store's payload, and a
  read-back of a stored block is that block.
-/
import proofs.«171891_j52913997086747_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A middle relation leaves the running block at `acc + X · Wᵀ`. -/
theorem scratch_mid (c : Dev nD) (i : grid0.Coords) (arg2 : Memref sig .tc .vmem S1x5000x128 .f32) (harg2 : arg2.IsWhole) (arg3 : Memref sig .tc .vmem S1x128x128 .f32) (harg3 : arg3.IsWhole) (arg4 : Memref sig .tc .vmem S5000x128 .f32) (harg4 : arg4.IsWhole) (arg5 : Memref sig .tc .vmem S5000x128 .f32) (harg5 : arg5.IsWhole) (hc0 : ¬cond0_0 i) (hc1 : ¬cond0_1 i)
    (x0 : Vec F S1x5000x128 .f32) (x1 : Vec F S1x128x128 .f32) (xs0 : Vec F S5000x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero off2]
  simp only [View.readAt_eq_ld, harg2.read_unread, harg3.read_unread, harg5.read_unread,
    View.ld_unit_zero (S := S1x5000x128) off3, View.ld_unit_zero (S := S1x128x128) off3,
    View.ld_unit_zero (S := S5000x128) off2]

/-- The first relation leaves it at `zero + X · Wᵀ`: the zero block it stored is what it reads back. -/
theorem scratch_first (c : Dev nD) (i : grid0.Coords) (arg2 : Memref sig .tc .vmem S1x5000x128 .f32) (harg2 : arg2.IsWhole) (arg3 : Memref sig .tc .vmem S1x128x128 .f32) (harg3 : arg3.IsWhole) (arg4 : Memref sig .tc .vmem S5000x128 .f32) (harg4 : arg4.IsWhole) (arg5 : Memref sig .tc .vmem S5000x128 .f32) (harg5 : arg5.IsWhole) (hc0 : cond0_0 i) (hc1 : ¬cond0_1 i)
    (x0 : Vec F S1x5000x128 .f32) (x1 : Vec F S1x128x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S5000x128) off2, View.readCov_unit_zero (S := S5000x128) _ off2]
  simp only [View.readAt_eq_ld, harg2.read_unread, harg3.read_unread,
    View.ld_unit_zero (S := S1x5000x128) off3, View.ld_unit_zero (S := S1x128x128) off3]

/-- The last relation leaves the running block at `acc + X · Wᵀ` too … -/
theorem scratch_last (c : Dev nD) (i : grid0.Coords) (arg2 : Memref sig .tc .vmem S1x5000x128 .f32) (harg2 : arg2.IsWhole) (arg3 : Memref sig .tc .vmem S1x128x128 .f32) (harg3 : arg3.IsWhole) (arg4 : Memref sig .tc .vmem S5000x128 .f32) (harg4 : arg4.IsWhole) (arg5 : Memref sig .tc .vmem S5000x128 .f32) (harg5 : arg5.IsWhole) (hc0 : ¬cond0_0 i) (hc1 : cond0_1 i)
    (x0 : Vec F S1x5000x128 .f32) (x1 : Vec F S1x128x128 .f32) (xs0 : Vec F S5000x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero off2]
  simp only [View.readAt_eq_ld, harg2.read_unread, harg3.read_unread, harg5.read_unread,
    View.ld_unit_zero (S := S1x5000x128) off3, View.ld_unit_zero (S := S1x128x128) off3,
    View.ld_unit_zero (S := S5000x128) off2]

/-- … and the output block at that block clamped at zero. -/
theorem out_last (c : Dev nD) (i : grid0.Coords) (arg2 : Memref sig .tc .vmem S1x5000x128 .f32) (harg2 : arg2.IsWhole) (arg3 : Memref sig .tc .vmem S1x128x128 .f32) (harg3 : arg3.IsWhole) (arg4 : Memref sig .tc .vmem S5000x128 .f32) (harg4 : arg4.IsWhole) (arg5 : Memref sig .tc .vmem S5000x128 .f32) (harg5 : arg5.IsWhole) (hc0 : ¬cond0_0 i) (hc1 : cond0_1 i)
    (x0 : Vec F S1x5000x128 .f32) (x1 : Vec F S1x128x128 .f32) (xs0 : Vec F S5000x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero off2, View.readCov_unit_zero (S := S5000x128) _ off2]
  simp only [View.readAt_eq_ld, harg2.read_unread, harg3.read_unread, harg5.read_unread,
    View.ld_unit_zero (S := S1x5000x128) off3, View.ld_unit_zero (S := S1x128x128) off3,
    View.ld_unit_zero (S := S5000x128) off2]

end Cert.KernelIdeal.Pieces

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.Payload.lean ====
/-
  What the body's three stores write, read at one entry, on the extended reals.

  The body keeps a running block `acc` of 5000 rows by 128 features. At the first relation it stores
  the zero block; at every relation it stores `acc + X · Wᵀ`, where `X` is the point's 5000 × 128 block
  of aggregated messages and `W` the relation's 128 × 128 weights (the roundings on the way into the
  product are the identity on the extended reals, and the product into a zero accumulator is the plain
  sum over the contracted feature); at the last relation it stores `max acc 0` into the output block.
  The blocks arrive with a leading axis of extent one, which the body casts away.
-/
import proofs.«171891_j52913997086747_1_alg».proof.Proof.Gen.KernelIdeal.Skeleton
import proofs.«171891_j52913997086747_1_alg».proof.Proof.LibDotNT
import proofs.«171891_j52913997086747_1_alg».proof.Proof.LibDropUnit
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The body's product contracts the second axis of both operands. -/
theorem isNT : Cert.DotNT.IsNT dot_S5000x128_S128x128_S5000x128_1_1_0_0_n_n :=
  ⟨rfl, rfl, rfl, rfl, rfl, rfl⟩

/-- The reset stores zero everywhere. -/
theorem reset_apply (j : S5000x128.Idx) : k0_pay1 (F := Ideal) j = 0 := by
  show shapeCast S5000x128 (broadcast S5000x128 (Scalar.ofBits (F := Ideal) .f32 0x00000000#32)) shapeCasts_S5000x128_S5000x128 j = 0
  rw [shapeCast_self]
  exact Ideal.ofBits_zero_f32

/-- The accumulating store at `(p, l)`: what the block held there plus row `p` of the messages against
    row `l` of the weights. -/
theorem accumulate_apply (x0 : Vec Ideal S1x5000x128 .f32) (x1 : Vec Ideal S1x128x128 .f32)
    (acc : Vec Ideal S5000x128 .f32) (p : Fin 5000) (l : Fin 128) :
    k0_pay2 (F := Ideal) x0 x1 acc (ix2 p l) = acc (ix2 p l) + ∑ q : Fin 128, x0 (ix3 0 p q) * x1 (ix3 0 l q) := by
  show shapeCast S5000x128 (addf (F := Ideal) acc (matmul (F := Ideal) dot_S5000x128_S128x128_S5000x128_1_1_0_0_n_n none
      (truncf (F := Ideal) .bf16 (shapeCast S5000x128 x0 shapeCasts_S1x5000x128_S5000x128 : FVec Ideal S5000x128 .f32) bitsLt_bf16_f32)
      (truncf (F := Ideal) .bf16 (shapeCast S128x128 x1 shapeCasts_S1x128x128_S128x128 : FVec Ideal S128x128 .f32) bitsLt_bf16_f32)
      (constant (F := Ideal) S5000x128 .f32 0x00000000#32))) shapeCasts_S5000x128_S5000x128 (ix2 p l) = _
  rw [shapeCast_self]
  refine (addf_apply _ _ _).trans (congrArg (acc (ix2 p l) + ·) ?_)
  refine (Cert.DotNT.matmul_zero_apply isNT none _ _ p l).trans (Finset.sum_congr rfl fun q _ => ?_)
  rw [truncf_apply, truncf_apply, Cert.DropUnit.dropUnit_apply, Cert.DropUnit.dropUnit_apply]

/-- The final store at an entry: the accumulated value clamped at zero. -/
theorem clamp_apply (v : Vec Ideal S5000x128 .f32) (j : S5000x128.Idx) :
    k0_pay3 (F := Ideal) v j = max (v j) 0 := by
  show maximumf (F := Ideal) v (broadcast S5000x128 (Scalar.ofBits (F := Ideal) .f32 0x00000000#32)) j = _
  refine (maximumf_apply _ _ _).trans (congrArg (max (v j)) ?_)
  exact Ideal.ofBits_zero_f32

end Cert.KernelIdeal.Payload

end
-- ==== Proof.RelationSum.lean ====
/-
  The function both programs compute from the aggregated messages and the relation weights.

  `H[r, n, q]` is the message aggregated at node `n` under relation `r`, `W[r, l, q]` the weight of
  relation `r` from input feature `q` to output feature `l`. The result at `(n, l)` is

      max (0 + Σ_{r < 8} Σ_{q < 128} H[r, n, q] · W[r, l, q]) 0

  on the extended reals: each relation's product `H[r] · W[r]ᵀ`, summed over the relations, then
  clamped at zero. One program adds the relations' products one at a time into a zeroed buffer; the
  other forms all of them and sums along the relation axis. Both are this double sum: addition of
  extended reals is associative and commutative with unit `0`, so neither the order of the relations
  nor the starting zero matters, and no finiteness is needed.
-/
import Idealize.ShloMosaic.PureOps.Ideal.Laws
import Idealize.ShloMosaic.Lib.ValueIdx

noncomputable section

open scoped BigOperators

namespace Cert.RelationSum

open Idealize.ShloMosaic Idealize.ShloMosaic.ValueIdx

/-- The word of `+0.0` read as an extended real: it is `0`. -/
theorem zeroWord : Ideal.ofBits .f32 0x00000000#32 = 0 := Ideal.ofBits_zero_f32

/-- One relation's product at `(n, l)`: row `n` of `H[r]` against row `l` of `W[r]`. -/
def relProd (H : (⟨3, ![8, 100000, 128]⟩ : Shape).Idx → EReal) (W : (⟨3, ![8, 128, 128]⟩ : Shape).Idx → EReal)
    (r : Fin 8) (n : Fin 100000) (l : Fin 128) : EReal :=
  ∑ q : Fin 128, H (ix3 r n q) * W (ix3 r l q)

/-- The result array: the relations' products summed and clamped at zero. -/
def sumRelu (H : (⟨3, ![8, 100000, 128]⟩ : Shape).Idx → EReal) (W : (⟨3, ![8, 128, 128]⟩ : Shape).Idx → EReal) :
    (⟨2, ![100000, 128]⟩ : Shape).Idx → EReal :=
  fun i => max (0 + ∑ r : Fin 8, relProd H W r (i 0) (i 1)) 0

/-- A sum over the first eight naturals is the sum over `Fin 8`: the relations met one at a time, in
    order, are all the relations. -/
theorem sum_range_eight (f : Nat → EReal) : ∑ s ∈ Finset.range 8, f s = ∑ r : Fin 8, f r.val :=
  Finset.sum_range f

end Cert.RelationSum

end
-- ==== Proof.Fold.lean ====
/-
  The running block after any grid point, as a sum over the relations met so far.

  The grid has 160 points: point `n` works on row tile `n / 8` (5000 rows) and relation `n % 8`. Its
  message block is rows `5000·(n / 8) … 5000·(n / 8) + 4999` of `H[n % 8]`, its weight block is
  `W[n % 8]`. Within one tile the eight points reset the running block and then add one relation's
  product each, so after point `t` the block holds, at `(p, l)`,

      0 + Σ_{s ≤ t % 8} Σ_q H[s, 5000·(t / 8) + p, q] · W[s, l, q].
-/
import proofs.«171891_j52913997086747_1_alg».proof.Proof.Gen.KernelIdeal.Value
import proofs.«171891_j52913997086747_1_alg».proof.Proof.Pieces
import proofs.«171891_j52913997086747_1_alg».proof.Proof.Payload
import proofs.«171891_j52913997086747_1_alg».proof.Proof.RelationSum

set_option maxRecDepth 16384

noncomputable section

open scoped BigOperators

namespace Cert.KernelIdeal.Fold

open Cert.KernelIdeal Cert.KernelIdeal.Gen Cert.KernelIdeal.Value Cert.RelationSum
open Idealize.ShloMosaic Idealize.ShloMosaic.TcCoe Idealize.ShloMosaic.ValueIdx
open Idealize.SL.Sem

variable (m : (ℓ : Loc nD τ sig) → Buf (Elt Ideal) ℓ)

/-- The relation grid point `n` works on. -/
def rel (n : Nat) : Fin 8 := ⟨n % 8, Nat.mod_lt _ (by decide)⟩
/-- The row tile grid point `n` works on (taken mod 20 so that it is defined for every natural). -/
def tile (n : Nat) : Fin 20 := ⟨n / 8 % 20, Nat.mod_lt _ (by decide)⟩
/-- Row `p` of tile `T` as a row of the whole array. -/
def row (T : Fin 20) (p : Fin 5000) : Fin 100000 :=
  ⟨5000 * T.val + p.val, by have := T.isLt; have := p.isLt; omega⟩

/-- What point `n` adds at `(p, l)`: its relation's product at the tile's row `p`. -/
def addend (H : S8x100000x128.Idx → EReal) (W : S8x128x128.Idx → EReal) (n : Nat) (p : Fin 5000) (l : Fin 128) : EReal :=
  relProd H W (rel n) (row (tile n) p) l

/-- The message window's block index at a point: (relation, tile, 0). -/
theorem msg_index : ∀ t : Fin cfg0.N, win0_0.index t (0 : Fin 3) = t.val % 8 ∧ win0_0.index t (1 : Fin 3) = t.val / 8
    ∧ win0_0.index t (2 : Fin 3) = 0 :=
  (by decide +kernel : ∀ t : Fin grid0.N, _)

/-- The weight window's block index at a point: (relation, 0, 0). -/
theorem wt_index : ∀ t : Fin cfg0.N, win0_1.index t (0 : Fin 3) = t.val % 8 ∧ win0_1.index t (1 : Fin 3) = 0
    ∧ win0_1.index t (2 : Fin 3) = 0 :=
  (by decide +kernel : ∀ t : Fin grid0.N, _)

/-- Any array read through the message window's block at point `t`, at `(0, p, q)`: the array at
    `(t % 8, 5000·(t / 8) + p, q)`. -/
theorem msg_read (A : S8x100000x128.Idx → EReal) (t : Fin cfg0.N) (p : Fin 5000) (q : Fin 128) :
    ((cfg0.win 0).blk t).view.read (Elt Ideal) A (ix3 0 p q) = A (ix3 (rel t.val) (row (tile t.val) p) q) := by
  obtain ⟨e0, e1, e2⟩ := msg_index t
  have hN : t.val < 160 := lt_of_lt_of_eq t.isLt (show cfg0.N = 160 from N_0)
  rw [View.read_apply]
  refine congrArg A (funext fun a => Fin.ext ?_)
  match a with
  | ⟨0, _⟩ => show win0_0.index t (0 : Fin 3) * 1 + 1 * 0 = t.val % 8; omega
  | ⟨1, _⟩ => show win0_0.index t (1 : Fin 3) * 5000 + 1 * p.val = 5000 * (t.val / 8 % 20) + p.val; omega
  | ⟨2, _⟩ => show win0_0.index t (2 : Fin 3) * 128 + 1 * q.val = q.val; omega

/-- Any array read through the weight window's block at point `t`, at `(0, l, q)`: the array at
    `(t % 8, l, q)`. -/
theorem wt_read (A : S8x128x128.Idx → EReal) (t : Fin cfg0.N) (l : Fin 128) (q : Fin 128) :
    ((cfg0.win 1).blk t).view.read (Elt Ideal) A (ix3 0 l q) = A (ix3 (rel t.val) l q) := by
  obtain ⟨e0, e1, e2⟩ := wt_index t
  rw [View.read_apply]
  refine congrArg A (funext fun a => Fin.ext ?_)
  match a with
  | ⟨0, _⟩ => show win0_1.index t (0 : Fin 3) * 1 + 1 * 0 = t.val % 8; omega
  | ⟨1, _⟩ => show win0_1.index t (1 : Fin 3) * 128 + 1 * l.val = l.val; omega
  | ⟨2, _⟩ => show win0_1.index t (2 : Fin 3) * 128 + 1 * q.val = q.val; omega

/-- The message block of point `t` at `(0, p, q)` is `H[t % 8, 5000·(t / 8) + p, q]`. -/
theorem msg_block (c : Dev nD) (t : Fin cfg0.N) (p : Fin 5000) (q : Fin 128) :
    (iblk m c 0 t : Vec Ideal S1x5000x128 .f32) (ix3 0 p q)
      = V m c main_v29 (ix3 (rel t.val) (row (tile t.val) p) q) :=
  msg_read (V m c main_v29) t p q

/-- The weight block of point `t` at `(0, l, q)` is `W[t % 8, l, q]`. -/
theorem wt_block (c : Dev nD) (t : Fin cfg0.N) (l : Fin 128) (q : Fin 128) :
    (iblk m c 1 t : Vec Ideal S1x128x128 .f32) (ix3 0 l q) = V m c main_arg1 (ix3 (rel t.val) l q) :=
  wt_read (V m c main_arg1) t l q

/-- The accumulating store over blocks that read `H` and `W` as point `n`'s windows do: what the block held
    plus the point's addend. -/
theorem accumulate_addend (H : S8x100000x128.Idx → EReal) (W : S8x128x128.Idx → EReal) (n : Nat)
    (x0 : Vec Ideal S1x5000x128 .f32) (x1 : Vec Ideal S1x128x128 .f32) (acc : Vec Ideal S5000x128 .f32)
    (hx0 : ∀ (p : Fin 5000) (q : Fin 128), x0 (ix3 0 p q) = H (ix3 (rel n) (row (tile n) p) q))
    (hx1 : ∀ (l : Fin 128) (q : Fin 128), x1 (ix3 0 l q) = W (ix3 (rel n) l q)) (p : Fin 5000) (l : Fin 128) :
    k0_pay2 (F := Ideal) x0 x1 acc (ix2 p l) = acc (ix2 p l) + addend H W n p l :=
  (Payload.accumulate_apply x0 x1 acc p l).trans
    (congrArg (acc (ix2 p l) + ·) (Finset.sum_congr rfl fun q _ => congrArg₂ (· * ·) (hx0 p q) (hx1 l q)))

/-- At a tile's first point the running block becomes `0 +` the point's addend, whatever it held. -/
theorem step_first (c : Dev nD) (n : Nat) (hb : n < cfg0.N) (h0 : n % 8 = 0) (acc : Vec Ideal S5000x128 .f32)
    (p : Fin 5000) (l : Fin 128) :
    scAt0_0 m c n hb acc (ix2 p l) = 0 + addend (V m c main_v29) (V m c main_arg1) n p l := by
  have h1 : ¬n % 8 = 7 := by omega
  unfold scAt0_0
  rw [dif_pos h0, dif_neg h1]
  refine (congrFun (Pieces.scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) _ _ (iblk m c 0 ⟨n, hb⟩) (iblk m c 1 ⟨n, hb⟩)) (ix2 p l)).trans ?_
  refine (accumulate_addend (V m c main_v29) (V m c main_arg1) n (iblk m c 0 ⟨n, hb⟩) (iblk m c 1 ⟨n, hb⟩) _
    (msg_block m c ⟨n, hb⟩) (wt_block m c ⟨n, hb⟩) p l).trans ?_
  rw [Payload.reset_apply]

/-- At every other point of the tile it grows by the point's addend. -/
theorem step_next (c : Dev nD) (n : Nat) (hb : n < cfg0.N) (h0 : ¬n % 8 = 0) (acc : Vec Ideal S5000x128 .f32)
    (p : Fin 5000) (l : Fin 128) :
    scAt0_0 m c n hb acc (ix2 p l) = acc (ix2 p l) + addend (V m c main_v29) (V m c main_arg1) n p l := by
  unfold scAt0_0
  rw [dif_neg h0]
  by_cases h1 : n % 8 = 7
  · rw [dif_pos h1]
    refine (congrFun (Pieces.scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) _ _ (iblk m c 0 ⟨n, hb⟩) (iblk m c 1 ⟨n, hb⟩) acc) (ix2 p l)).trans ?_
    exact accumulate_addend (V m c main_v29) (V m c main_arg1) n (iblk m c 0 ⟨n, hb⟩) (iblk m c 1 ⟨n, hb⟩) acc
      (msg_block m c ⟨n, hb⟩) (wt_block m c ⟨n, hb⟩) p l
  · rw [dif_neg h1]
    refine (congrFun (Pieces.scratch_mid (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) _ _ (iblk m c 0 ⟨n, hb⟩) (iblk m c 1 ⟨n, hb⟩) acc) (ix2 p l)).trans ?_
    exact accumulate_addend (V m c main_v29) (V m c main_arg1) n (iblk m c 0 ⟨n, hb⟩) (iblk m c 1 ⟨n, hb⟩) acc
      (msg_block m c ⟨n, hb⟩) (wt_block m c ⟨n, hb⟩) p l

/-- The running block after point `t`: zero plus the addends of the tile's points up to `t`. -/
theorem scratch_after (c : Dev nD) (t : Fin cfg0.N) (p : Fin 5000) (l : Fin 128) :
    (outsAt0 m c t.val t.isLt).2 (ix2 p l)
      = 0 + ∑ s ∈ Finset.range (t.val % 8 + 1), addend (V m c main_v29) (V m c main_arg1) (8 * (t.val / 8) + s) p l := by
  rw [soutsAt0_0_eq m c t]
  exact Pipeline.accAt_add_apply (ι := S5000x128.Idx) (β := EReal) _ _ (fun _ => 0)
    (fun n i => addend (V m c main_v29) (V m c main_arg1) n (i 0) (i 1)) (8 * (t.val / 8)) 7
    (fun h i => by
      obtain ⟨p, l, rfl⟩ : ∃ (p : Fin 5000) (l : Fin 128), i = ix2 p l := ⟨i 0, i 1, eq_ix2 i⟩
      exact step_first m c _ h (by omega) _ p l)
    (fun n h acc i hlt hle => by
      obtain ⟨p, l, rfl⟩ : ∃ (p : Fin 5000) (l : Fin 128), i = ix2 p l := ⟨i 0, i 1, eq_ix2 i⟩
      exact step_next m c n h (by omega) acc p l)
    (t.val % 8) (by omega) _ (ix2 p l)

end Cert.KernelIdeal.Fold

end
-- ==== Proof.Final.lean ====
/-
  From the blocks the pipeline writes back to the whole result array.

  The output is written back only at a tile's last relation (points `8·T + 7`), to rows
  `5000·T … 5000·T + 4999`. There the output buffer holds the running block clamped at zero, and the
  running block holds all eight relations' products: entry `(p, l)` of the block is the result function at
  row `5000·T + p`, column `l`. The twenty tiles cover the 100000 rows, so the array ends at the result
  function everywhere.
-/
import proofs.«171891_j52913997086747_1_alg».proof.Proof.Fold

set_option maxRecDepth 16384

noncomputable section

open scoped BigOperators

namespace Cert.KernelIdeal.Final

open Cert.KernelIdeal Cert.KernelIdeal.Gen Cert.KernelIdeal.Value Cert.KernelIdeal.Fold Cert.RelationSum
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The output window's block index at a point: (tile, 0). -/
theorem out_index : ∀ t : Fin cfg0.N, win0_2.index t (0 : Fin 2) = t.val / 8 ∧ win0_2.index t (1 : Fin 2) = 0 :=
  (by decide +kernel : ∀ t : Fin grid0.N, _)

/-- At a tile's last point the clamped running block is the result function on the tile's rows. -/
theorem entry (c : Dev nD) (t : Fin cfg0.N) (h1 : t.val % 8 = 7) (p : Fin 5000) (l : Fin 128) :
    k0_pay3 (F := Ideal) ((outsAt0 m c t.val t.isLt).2) (ix2 p l)
      = sumRelu (V m c main_v29) (V m c main_arg1) (ix2 (row (tile t.val) p) l) := by
  rw [Payload.clamp_apply, scratch_after m c t p l, h1, sum_range_eight]
  unfold sumRelu
  refine congrArg (fun s => max (0 + s) 0) (Finset.sum_congr rfl fun r _ => ?_)
  unfold addend
  have hr : rel (8 * (t.val / 8) + r.val) = r :=
    Fin.ext (by show (8 * (t.val / 8) + r.val) % 8 = r.val; have := r.isLt; omega)
  have ht : tile (8 * (t.val / 8) + r.val) = tile t.val :=
    Fin.ext (by show (8 * (t.val / 8) + r.val) / 8 % 20 = t.val / 8 % 20; have := r.isLt; omega)
  rw [hr, ht]

/-- Any block read through the output window's cut at point `t`: entry `j` of the cut is entry
    `(j 0, j 1)` of the block (the window's blocks are whole: nothing is cut off). -/
theorem cut_apply (X : S5000x128.Idx → EReal) (t : Fin cfg0.N) (j : ((cfg0.win 2).xblock (grid0.coords t)).Idx)
    (hj0 : (j 0).val < 5000) (hj1 : (j 1).val < 128) :
    (cfg0.win 2).cut (grid0.coords t) X j = X (ix2 (⟨(j 0).val, hj0⟩ : Fin 5000) (⟨(j 1).val, hj1⟩ : Fin 128)) :=
  congrArg X (funext fun a => Fin.ext (by match a with | ⟨0, _⟩ => rfl | ⟨1, _⟩ => rfl))

/-- Any array read through the output window's block at point `t`: entry `j` of the block is the array at row
    `5000·(t / 8) + j 0`, column `j 1`. -/
theorem out_read (G : S100000x128.Idx → EReal) (t : Fin cfg0.N) (j : ((cfg0.win 2).xblock (grid0.coords t)).Idx)
    (hj0 : (j 0).val < 5000) (hj1 : (j 1).val < 128) :
    ((cfg0.win 2).blk t).view.read (Elt Ideal) G j
      = G (ix2 (row (tile t.val) ⟨(j 0).val, hj0⟩) (⟨(j 1).val, hj1⟩ : Fin 128)) := by
  obtain ⟨e0, e1⟩ := out_index t
  have hN : t.val < 160 := lt_of_lt_of_eq t.isLt (show cfg0.N = 160 from N_0)
  rw [View.read_apply]
  refine congrArg G (funext fun a => Fin.ext ?_)
  match a with
  | ⟨0, _⟩ => show win0_2.index t (0 : Fin 2) * 5000 + 1 * (j 0).val = 5000 * (t.val / 8 % 20) + (j 0).val; omega
  | ⟨1, _⟩ => show win0_2.index t (1 : Fin 2) * 128 + 1 * (j 1).val = (j 1).val; omega

/-- What a writing point writes back is its block of the result function. -/
theorem flushed_eq (c : Dev nD) (t : Fin cfg0.N) (hf : (cfg0.win 2).flush t = true) :
    (dats m 0 c).flushed 2 t
      = ((cfg0.win 2).blk t).view.read (Elt Ideal) (sumRelu (V m c main_v29) (V m c main_arg1)) := by
  have h1 : t.val % 8 = 7 := (flush0_2 t).mp hf
  have h0 : ¬t.val % 8 = 0 := by omega
  have hout : (outsAt0 m c t.val t.isLt).1 = k0_pay3 ((outsAt0 m c t.val t.isLt).2) := by
    rw [outsAt0_C m c t h0 h1]
    dsimp only
    exact (Pieces.out_last (F := Ideal) c (grid0.coords t) (ms0_0 t) (hs0_0 t) (ms0_1 t) (hs0_1 t) (ms0_2 t) (hs0_2 t) scM0_0 (Memref.isWhole_whole _) _ _ (iblk m c 0 t) (iblk m c 1 t) _).trans
      (congrArg k0_pay3 (Pieces.scratch_last (F := Ideal) c (grid0.coords t) (ms0_0 t) (hs0_0 t) (ms0_1 t) (hs0_1 t) (ms0_2 t) (hs0_2 t) scM0_0 (Memref.isWhole_whole _) _ _ (iblk m c 0 t) (iblk m c 1 t) _).symm)
  rw [flushed2, hout]
  funext j
  have hj0 : (j 0).val < 5000 := (j 0).isLt
  have hj1 : (j 1).val < 128 := (j 1).isLt
  exact (cut_apply (k0_pay3 (F := Ideal) ((outsAt0 m c t.val t.isLt).2)) t j hj0 hj1).trans
    ((entry m c t h1 ⟨(j 0).val, hj0⟩ ⟨(j 1).val, hj1⟩).trans
      (out_read (sumRelu (V m c main_v29) (V m c main_arg1)) t j hj0 hj1).symm)

/-- An index of the array lies in point `t`'s block iff each coordinate lies in the block's range. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row belongs to the tile `row / 5000`, whose last point writes it. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 160 := N_0
  have hb : 8 * ((i 0).val / 5000) + 7 < cfg0.N := by rw [hN]; omega
  obtain ⟨e0, e1⟩ := out_index ⟨8 * ((i 0).val / 5000) + 7, hb⟩
  have e0' : win0_2.index ⟨8 * ((i 0).val / 5000) + 7, hb⟩ (0 : Fin 2) = (i 0).val / 5000 := by
    rw [e0]; show (8 * ((i 0).val / 5000) + 7) / 8 = (i 0).val / 5000; omega
  refine ⟨⟨8 * ((i 0).val / 5000) + 7, hb⟩, (flush0_2 _).mpr (by show (8 * ((i 0).val / 5000) + 7) % 8 = 7; omega), ?_⟩
  rw [mem_blk]
  intro a
  match a with
  | ⟨0, _⟩ =>
    show win0_2.index ⟨8 * ((i 0).val / 5000) + 7, hb⟩ (0 : Fin 2) * 5000 ≤ (i 0).val
      ∧ (i 0).val < win0_2.index ⟨8 * ((i 0).val / 5000) + 7, hb⟩ (0 : Fin 2) * 5000 + 5000
    rw [e0']; omega
  | ⟨1, _⟩ =>
    show win0_2.index ⟨8 * ((i 0).val / 5000) + 7, hb⟩ (1 : Fin 2) * 128 ≤ (i 1).val
      ∧ (i 1).val < win0_2.index ⟨8 * ((i 0).val / 5000) + 7, hb⟩ (1 : Fin 2) * 128 + 128
    rw [e1]; omega

/-- The result array after the run is the result function of the aggregated messages and the weights as
    the region finds them. -/
theorem final (c : Dev nD) :
    (dats m 0 c).arrAt 2 cfg0.N = sumRelu (V m c main_v29) (V m c main_arg1) :=
  (dats m 0 c).arrAt_eq_of_cover 2 (sumRelu (V m c main_v29) (V m c main_arg1)) (flushed_eq m c) cover

end Cert.KernelIdeal.Final

end
-- ==== Proof.Messages.lean ====
/-
  The aggregated messages are the same array in both programs.

  Before its region the kernel's program aggregates the messages exactly as the reference does: the row
  index `rel · n + dst` of every edge, the rows' degrees by a scatter-add of ones, the reciprocal of the
  degree gathered per edge, the source rows gathered and scaled, a scatter-add into the 800000 rows, and
  a reshape to relation × node × feature. Operation for operation the two programs apply the same
  functions to the same arguments, so the array the region finds is the reference's aggregation stage of
  the arguments; the aggregation is never opened.
-/
import proofs.«171891_j52913997086747_1_alg».proof.Proof.Gen.KernelIdeal.Frame
import proofs.«171891_j52913997086747_1_alg».proof.Proof.Gen.ReferenceIdeal.Read
import Idealize.ShloMosaic.Lib.StableHlo.Run

set_option maxRecDepth 16384

noncomputable section

namespace Cert.KernelIdeal.Messages

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ)

/-- What the region finds in the message array is the reference's aggregation stage of the arguments. -/
theorem msgs_eq (c : Dev nD) :
    (V m c main_v29 : S8x100000x128.Idx → EReal)
      = Cert.ReferenceIdeal.Read.val_main_v29 (F := Ideal) (m ((c : Thread nD τ).loc main_arg0))
          (m ((c : Thread nD τ).loc main_arg2)) (m ((c : Thread nD τ).loc main_arg3))
          (m ((c : Thread nD τ).loc main_arg4)) := by
  dsimp only [Gen.V, Gen.hostOps0]
  after_results_simp
  rfl

end Cert.KernelIdeal.Messages

end
-- ==== Proof.ReferenceSum.lean ====
/-
  The reference's result is the relations' products summed and clamped.

  After the aggregation the reference forms every relation's product at once (a batched product over
  the relation axis, contracting the feature axis of the messages against the input-feature axis of
  the weights), moves the relation axis next to the node axis, sums along it from zero, and takes the
  maximum with zero. Read at `(n, l)`: the sum over relations `r` of `Σ_q H[r, n, q] · W[r, l, q]`,
  then the clamp.
-/
import proofs.«171891_j52913997086747_1_alg».proof.Proof.Gen.ReferenceIdeal.Read
import proofs.«171891_j52913997086747_1_alg».proof.Proof.RelationSum

noncomputable section

open scoped BigOperators

namespace Cert.ReferenceIdeal.RefValue

open Cert.ReferenceIdeal Cert.ReferenceIdeal.Read Cert.RelationSum
open Idealize.ShloMosaic Idealize.ShloMosaic.ValueIdx

/-- The reference's last stage as a function of its arguments is `sumRelu` of the aggregated messages
    (the stage before the product) and the weights. -/
theorem result_eq (x0 : (⟨S100000x128, .f32⟩ : BufTy).Contents (Elt Ideal)) (x1 : (⟨S8x128x128, .f32⟩ : BufTy).Contents (Elt Ideal))
    (x2 x3 x4 : (⟨S1600000, .i32⟩ : BufTy).Contents (Elt Ideal)) :
    val_main_v33 (F := Ideal) x0 x1 x2 x3 x4 = sumRelu (val_main_v29 (F := Ideal) x0 x2 x3 x4) x1 := by
  funext i
  obtain ⟨n, l, rfl⟩ : ∃ (n : Fin 100000) (l : Fin 128), i = ix2 n l := ⟨i 0, i 1, eq_ix2 i⟩
  rw [val_main_v33_apply, val_main_v32_apply, val_main_call0_v0_apply, val_main_call0_cst_apply, val_main_cst_7_apply]
  simp only [Ideal.maximumf_def, Ideal.ofBits_def, zeroWord]
  unfold sumRelu relProd
  refine congrArg (fun s => max (0 + s) 0) (Finset.sum_congr rfl fun k _ => ?_)
  rw [val_main_v31_apply, val_main_v30_apply]
  refine Finset.sum_congr rfl fun q _ => ?_
  have el : lidx_main_v30 (idx_main_v31 (idx_main_v32 (ix2 n l) k)) q = ix3 k n q :=
    funext fun a => Fin.ext (by match a with | ⟨0, _⟩ => rfl | ⟨1, _⟩ => rfl | ⟨2, _⟩ => rfl)
  have er : ridx_main_v30 (idx_main_v31 (idx_main_v32 (ix2 n l) k)) q = ix3 k l q :=
    funext fun a => Fin.ext (by match a with | ⟨0, _⟩ => rfl | ⟨1, _⟩ => rfl | ⟨2, _⟩ => rfl)
  rw [el, er]

end Cert.ReferenceIdeal.RefValue

end
-- ==== Proof.lean ====
/-
  A relational graph layer: per-relation products of aggregated messages, summed over the relations and
  clamped at zero.

  Both programs first aggregate the messages the same way (row-normalised scatter-add of gathered source
  rows into relation × node rows): the array `H[r, n, q]`. From there the kernel walks a grid of 20 row
  tiles × 8 relations, adding `H[r] · W[r]ᵀ` on the tile into a zeroed running block and writing
  `max block 0` at the tile's last relation; the reference forms all eight products at once, sums along
  the relation axis from zero and takes the maximum with zero. On the extended reals both results are

      out[n, l] = max (0 + Σ_r Σ_q H[r, n, q] · W[r, l, q]) 0,

  the kernel's sum being the same terms met relation by relation (`Fold`, `Final`), the reference's read
  off its stages (`ReferenceSum`), and `H` the same array on both sides (`Messages`). Nothing here needs the
  inputs to be finite. The three frames are the programs' runs with the results dropped; no operation was
  rewritten by the idealization, so nothing is owed for it.
-/
import proofs.«171891_j52913997086747_1_alg».proof.Defs
import proofs.«171891_j52913997086747_1_alg».proof.Proof.Gen.Kernel
import proofs.«171891_j52913997086747_1_alg».proof.Proof.Gen.Kernel.Skeleton
import proofs.«171891_j52913997086747_1_alg».proof.Proof.Gen.Kernel.Launch
import proofs.«171891_j52913997086747_1_alg».proof.Proof.Gen.Kernel.Points
import proofs.«171891_j52913997086747_1_alg».proof.Proof.Gen.Kernel.Frame
import proofs.«171891_j52913997086747_1_alg».proof.Proof.Gen.KernelIdeal
import proofs.«171891_j52913997086747_1_alg».proof.Proof.Gen.KernelIdeal.Skeleton
import proofs.«171891_j52913997086747_1_alg».proof.Proof.Gen.KernelIdeal.Launch
import proofs.«171891_j52913997086747_1_alg».proof.Proof.Gen.KernelIdeal.Points
import proofs.«171891_j52913997086747_1_alg».proof.Proof.Gen.KernelIdeal.Frame
import proofs.«171891_j52913997086747_1_alg».proof.Proof.Gen.ReferenceIdeal
import proofs.«171891_j52913997086747_1_alg».proof.Proof.Gen.KernelIdeal.Value
import proofs.«171891_j52913997086747_1_alg».proof.Proof.Gen.ReferenceIdeal.Run
import proofs.«171891_j52913997086747_1_alg».proof.Proof.Gen.ReferenceIdeal.Read
import proofs.«171891_j52913997086747_1_alg».proof.Proof.Gen.Pre_finite_inputs
import proofs.«171891_j52913997086747_1_alg».proof.Proof.Final
import proofs.«171891_j52913997086747_1_alg».proof.Proof.Messages
import proofs.«171891_j52913997086747_1_alg».proof.Proof.ReferenceSum
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `sumRelu` of the aggregated messages and the weights. -/
theorem algebraic : Cert.algebraic_KernelIdeal_ReferenceIdeal := by
  intro m ρ m' ρ' _ hagree
  refine ⟨fun c => Cert.RelationSum.sumRelu
      (Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Value.run_blocks (F := Ideal) m ρ)
    rw [Cert.KernelIdeal.Final.final m c, Cert.KernelIdeal.Messages.msgs_eq m c, Cert.KernelIdeal.Gen.V_main_arg1 m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
